-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S_ : Shape := ⟨0, ![]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel

variable [Facts]

def fn {F : FTy → Type} [FloatOps F] (main_arg0 : FVec F S8000000x4 .f32) (main_arg1 : FVec F S8000000x4 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  let main_v4 : FVec F S8000000x4 .f32 := Host.absf main_arg1
  let main_cst_0 : FVec F S_ .f32 := constant S_ .f32 0x7F800000#32
  let main_v5 : FVec F S8000000x4 .f32 := broadcastInDim S8000000x4 ![] bcast_S_S8000000x4 main_cst_0
  let main_v6 : IVec S8000000x4 1 := cmpf .olt main_v4 main_v5
  let main_c_1 : IVec S_ 1 := constantI S_ 1 1#1
  let main_v7 : IVec S_ 1 := (fun x v => Host.reduce IntOp.andi x v reducesTo_S8000000x4_S_d0_1 h_S_) main_v6 main_c_1
  let main_v8 : IVec S_ 1 := andi main_v3 main_v7
  main_v8
-- ==== Kernel.lean ====
abbrev S8000000x4 : Shape := ⟨2, ![8000000, 4]⟩
abbrev S1x1 : Shape := ⟨2, ![1, 1]⟩
abbrev S6400x4 : Shape := ⟨2, ![6400, 4]⟩
abbrev S6400x1 : Shape := ⟨2, ![6400, 1]⟩
abbrev S6400 : Shape := ⟨1, ![6400]⟩
abbrev S1x6400 : Shape := ⟨2, ![1, 6400]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8000000x4, .f32⟩
  | .hbm, ⟨1, _⟩ => ⟨S8000000x4, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S6400x4, .f32⟩
  | .local _ .vmem, ⟨1, _⟩ => ⟨S6400x4, .f32⟩
  | .local _ .vmem, ⟨2, _⟩ => ⟨S6400x4, .f32⟩
  | .local _ .vmem, ⟨3, _⟩ => ⟨S6400x4, .f32⟩
  | .local _ .vmem, ⟨4, _⟩ => ⟨S1x1, .f32⟩
  | .local _ .vmem, ⟨5, _⟩ => ⟨S1x1, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1250], ![false]⟩

def k0_cond2 (i : grid0.Coords) : BitVec 1 :=
  let arg0 : BitVec 32 := BitVec.ofNat 32 (i 0).val
  let c1249_i32 : BitVec 32 := 1249#32
  let v67 : BitVec 1 := Scalar.cmpi .eq arg0 c1249_i32
  let v68 : BitVec 32 := Scalar.extui v67
  let c0_i32_13 : BitVec 32 := 0#32
  let v69 : BitVec 1 := Scalar.cmpi .ne v68 c0_i32_13
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S6400x4_S6400x4_0_0 : ∀ a, (![0, 0] : Fin 2 → Nat) a + S6400x4.size a ≤ S6400x4.size a
  h_S6400x4 : 0 < S6400x4.numel
  slices_S6400x4_o0_0_S6400x1 : S6400x4.Slices ![0, 0] S6400x1
  shapeCasts_S6400x1_S6400 : S6400x1.ShapeCasts S6400
  slices_S6400x4_o0_1_S6400x1 : S6400x4.Slices ![0, 1] S6400x1
  slices_S6400x4_o0_2_S6400x1 : S6400x4.Slices ![0, 2] S6400x1
  slices_S6400x4_o0_3_S6400x1 : S6400x4.Slices ![0, 3] S6400x1
  shapeCasts_S6400_S1x6400 : S6400.ShapeCasts S1x6400
  reduces_S1x6400_S1 : S1x6400.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x4.size a ≤ S8000000x4.size a
  hwx0_0 : ∀ i : grid0.Coords, EltTy.bits .f32 = 32 ∨ (Rect.block (s := S8000000x4) S6400x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x4.size a ≤ S8000000x4.size a
  hwx0_1 : ∀ i : grid0.Coords, EltTy.bits .f32 = 32 ∨ (Rect.block (s := S8000000x4) S6400x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S6400x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8000000x4 : Shape := ⟨2, ![8000000, 4]⟩
abbrev S8000000x1 : Shape := ⟨2, ![8000000, 1]⟩
abbrev S8000000 : Shape := ⟨1, ![8000000]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8000000x4, .f32⟩
  | .hbm, ⟨1, _⟩ => ⟨S8000000x4, .f32⟩
  | .hbm, ⟨2, _⟩ => ⟨S8000000x1, .f32⟩
  | .hbm, ⟨3, _⟩ => ⟨S8000000, .f32⟩
  | .hbm, ⟨4, _⟩ => ⟨S8000000x1, .f32⟩
  | .hbm, ⟨5, _⟩ => ⟨S8000000, .f32⟩
  | .hbm, ⟨6, _⟩ => ⟨S8000000x1, .f32⟩
  | .hbm, ⟨7, _⟩ => ⟨S8000000, .f32⟩
  | .hbm, ⟨8, _⟩ => ⟨S8000000x1, .f32⟩
  | .hbm, ⟨9, _⟩ => ⟨S8000000, .f32⟩
  | .hbm, ⟨10, _⟩ => ⟨S8000000x1, .f32⟩
  | .hbm, ⟨11, _⟩ => ⟨S8000000, .f32⟩
  | .hbm, ⟨12, _⟩ => ⟨S8000000x1, .f32⟩
  | .hbm, ⟨13, _⟩ => ⟨S8000000, .f32⟩
  | .hbm, ⟨14, _⟩ => ⟨S8000000x1, .f32⟩
  | .hbm, ⟨15, _⟩ => ⟨S8000000, .f32⟩
  | .hbm, ⟨16, _⟩ => ⟨S8000000x1, .f32⟩
  | .hbm, ⟨17, _⟩ => ⟨S8000000, .f32⟩
  | .hbm, ⟨18, _⟩ => ⟨S8000000, .f32⟩
  | .hbm, ⟨19, _⟩ => ⟨S8000000, .f32⟩
  | .hbm, ⟨20, _⟩ => ⟨S8000000, .f32⟩
  | .hbm, ⟨21, _⟩ => ⟨S8000000, .f32⟩
  | .hbm, ⟨22, _⟩ => ⟨S8000000, .f32⟩
  | .hbm, ⟨23, _⟩ => ⟨S8000000, .f32⟩
  | .hbm, ⟨24, _⟩ => ⟨S8000000, .f32⟩
  | .hbm, ⟨25, _⟩ => ⟨S8000000, .f32⟩
  | .hbm, ⟨26, _⟩ => ⟨S8000000, .f32⟩
  | .hbm, ⟨27, _⟩ => ⟨S_, .f32⟩
  | .hbm, ⟨28, _⟩ => ⟨S_, .f32⟩
  | .hbm, ⟨29, _⟩ => ⟨S8000000, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S_, .f32⟩
  | .hbm, ⟨35, _⟩ => ⟨S_, .f32⟩
  | .hbm, ⟨36, _⟩ => ⟨S8000000, .f32⟩
  | .hbm, ⟨37, _⟩ => ⟨S8000000, .f32⟩
  | .hbm, ⟨38, _⟩ => ⟨S8000000, .f32⟩
  | .hbm, ⟨39, _⟩ => ⟨S8000000, .f32⟩
  | .hbm, ⟨40, _⟩ => ⟨S8000000, .f32⟩
  | .hbm, ⟨41, _⟩ => ⟨S8000000, .f32⟩
  | .hbm, ⟨42, _⟩ => ⟨S8000000, .f32⟩
  | .hbm, ⟨43, _⟩ => ⟨S8000000, .f32⟩
  | .hbm, ⟨44, _⟩ => ⟨S8000000, .f32⟩
  | .hbm, ⟨45, _⟩ => ⟨S_, .f32⟩
  | .hbm, ⟨46, _⟩ => ⟨S_, .f32⟩
  | .hbm, ⟨47, _⟩ => ⟨S8000000, .f32⟩
  | .hbm, ⟨48, _⟩ => ⟨S8000000, .f32⟩
  | .hbm, ⟨49, _⟩ => ⟨S8000000, .f32⟩
  | .hbm, ⟨50, _⟩ => ⟨S8000000, .f32⟩
  | .hbm, ⟨51, _⟩ => ⟨S8000000, .f32⟩
  | .hbm, ⟨52, _⟩ => ⟨S_, .f32⟩
  | .hbm, ⟨53, _⟩ => ⟨S_, .f32⟩
  | .hbm, ⟨54, _⟩ => ⟨S8000000, .f32⟩
  | .hbm, ⟨55, _⟩ => ⟨S8000000, .f32⟩
  | .hbm, ⟨56, _⟩ => ⟨S8000000, .f32⟩
  | .hbm, ⟨57, _⟩ => ⟨S8000000, .f32⟩
  | .hbm, ⟨58, _⟩ => ⟨S8000000, .f32⟩
  | .hbm, ⟨59, _⟩ => ⟨S8000000, .f32⟩
  | .hbm, ⟨60, _⟩ => ⟨S_, .f32⟩
  | .hbm, ⟨61, _⟩ => ⟨S8000000, .f32⟩
  | .hbm, ⟨62, _⟩ => ⟨S8000000, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_call3_v0 : Ref sig .tc := ⟨.hbm, 53, rfl⟩
abbrev main_call3_v1 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  slices_S8000000x4_S8000000x1_0_0 : S8000000x4.Slices ![0, 0] S8000000x1
  shapeCasts_S8000000x1_S8000000 : S8000000x1.ShapeCasts S8000000
  slices_S8000000x4_S8000000x1_0_1 : S8000000x4.Slices ![0, 1] S8000000x1
  slices_S8000000x4_S8000000x1_0_2 : S8000000x4.Slices ![0, 2] S8000000x1
  slices_S8000000x4_S8000000x1_0_3 : S8000000x4.Slices ![0, 3] S8000000x1
  bcast_S_S8000000 : S_.BroadcastsInDim S8000000 (![] : Fin 0 → Fin S8000000.rank)
  reducesTo_S8000000_S_d0 : S8000000.ReducesTo [0] S_
  h_S_ : 0 < S_.numel

variable [Facts₀]

class Facts : Prop extends Facts₀ where

variable [Facts]
-- ==== Proof.KernelPieces.lean ====
/-
  What one run of the kernel body leaves behind, case by case, as values (for any element type).

  The body's stores go through whole [1, 1] rectangles, and its loads read whole staging buffers, so what a
  buffer holds after the body is the payload of the last store into it, over the blocks the inputs' buffers hold:
    first point     — the accumulator is zeroed, read back, and left at  step(0);
    middle points   — the accumulator `a` the point before left is read and left at  step(a);
    last point      — the same, and the output cell receives the accumulator just stored,
  where  step(a)  is the body's one arithmetic payload over the two blocks and `a`.
-/
import proofs.«105647_j33672543601399_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- The body's arithmetic over two input blocks and an accumulator: what it stores back into the accumulator. -/
abbrev step (x0 x1 : Vec F S6400x4 .f32) (a : Vec F S1x1 .f32) : Vec F S1x1 .f32 :=
  k0_pay1 (k0_pay12 x0 x1) (k0_pay13 x0 x1) (k0_pay14 x0 x1) (k0_pay15 x0 x1) a

/-- First point: the accumulator ends at the step from the stored zero. -/
theorem sout_A (c : Dev nD) (i : grid0.Coords) (a1 : Memref sig .tc .vmem S6400x4 .f32) (h1 : a1.IsWhole)
    (a2 : Memref sig .tc .vmem S6400x4 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S6400x4 .f32) :
    sout0_A_0 c i a1 h1 a2 h2 a3 h3 a4 h4 hc0 hc1 x0 x1 = step x0 x1 k0_pay2 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz]
  rw [View.readCov_unit_zero (S := S1x1) _ hz]
  simp only [View.readAt_eq_ld, h1.read_unread, h2.read_unread, View.ld_unit_zero (S := S6400x4) hz]

/-- A middle point: the accumulator ends at the step from what it held. -/
theorem sout_B (c : Dev nD) (i : grid0.Coords) (a1 : Memref sig .tc .vmem S6400x4 .f32) (h1 : a1.IsWhole)
    (a2 : Memref sig .tc .vmem S6400x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S6400x4 .f32) (xs : Vec F S1x1 .f32) :
    sout0_B_0 c i a1 h1 a2 h2 a3 h3 a4 h4 hc0 hc1 x0 x1 xs = step x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S6400x4) hz,
    View.ld_unit_zero (S := S1x1) hz]

/-- The last point: the accumulator ends at the step from what it held, -/
theorem sout_C (c : Dev nD) (i : grid0.Coords) (a1 : Memref sig .tc .vmem S6400x4 .f32) (h1 : a1.IsWhole)
    (a2 : Memref sig .tc .vmem S6400x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S6400x4 .f32) (xs : Vec F S1x1 .f32) :
    sout0_C_0 c i a1 h1 a2 h2 a3 h3 a4 h4 hc0 hc1 x0 x1 xs = step x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S6400x4) hz,
    View.ld_unit_zero (S := S1x1) hz]

/-- and the output cell receives that same value (the accumulator read back after its store). -/
theorem out_C (c : Dev nD) (i : grid0.Coords) (a1 : Memref sig .tc .vmem S6400x4 .f32) (h1 : a1.IsWhole)
    (a2 : Memref sig .tc .vmem S6400x4 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S6400x4 .f32) (xs : Vec F S1x1 .f32) :
    out0_C_2 c i a1 h1 a2 h2 a3 h3 a4 h4 hc0 hc1 x0 x1 xs = step x0 x1 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  rw [View.readCov_unit_zero (S := S1x1) _ hz]
  simp only [View.readAt_eq_ld, h1.read_unread, h2.read_unread, h4.read_unread, View.ld_unit_zero (S := S6400x4) hz,
    View.ld_unit_zero (S := S1x1) hz]

end Cert.KernelIdeal.Pieces

end
-- ==== Proof.GiouSpec.lean ====
/-
  The mathematics both programs compute, over the extended reals.

  A box is (x1, y1, x2, y2).  For a predicted box p and a target box t:
    inter   = max(min(px2, tx2) − max(px1, tx1), 0) · max(min(py2, ty2) − max(py1, ty1), 0)
    union   = (px2 − px1)(py2 − py1) + (tx2 − tx1)(ty2 − ty1) − inter
    enclose = max(max(px2, tx2) − min(px1, tx1), 0) · max(max(py2, ty2) − min(py1, ty1), 0)
    loss    = 1 − (inter / union − (enclose − union) / enclose)
  and the result is the mean of the loss over the 8,000,000 box pairs: (0 + ∑ᵢ lossᵢ) / 8000000.
  Every operation is the extended reals' own (the quotient is the one both programs use at this
  instance), so nothing here needs the inputs finite: the only law used between the two programs is
  that a sum may be regrouped.
-/
import Idealize.ShloMosaic.PureOps.Ideal
import Idealize.ShloMosaic.Lib.ValueIdx

noncomputable section

namespace Cert.Giou

open Idealize.ShloMosaic Idealize.ShloMosaic.ValueIdx

/-- The f32 words `+0.0`, `1.0` and `8000000.0`, as both programs spell them. -/
abbrev zero : EReal := Ideal.ofBits .f32 0x00000000#32
abbrev one : EReal := Ideal.ofBits .f32 0x3F800000#32
abbrev count : EReal := Ideal.ofBits .f32 0x4AF42400#32

/-- Area of the intersection of the two boxes (zero when they do not overlap on an axis). -/
def inter (px1 py1 px2 py2 tx1 ty1 tx2 ty2 : EReal) : EReal :=
  max (min px2 tx2 - max px1 tx1) zero * max (min py2 ty2 - max py1 ty1) zero

/-- Area of the union: the two areas less the intersection. -/
def union (px1 py1 px2 py2 tx1 ty1 tx2 ty2 : EReal) : EReal :=
  (px2 - px1) * (py2 - py1) + (tx2 - tx1) * (ty2 - ty1) - inter px1 py1 px2 py2 tx1 ty1 tx2 ty2

/-- Area of the smallest box enclosing both. -/
def enclose (px1 py1 px2 py2 tx1 ty1 tx2 ty2 : EReal) : EReal :=
  max (max px2 tx2 - min px1 tx1) zero * max (max py2 ty2 - min py1 ty1) zero

/-- The generalized-IoU loss of one box pair. -/
def pairLoss (px1 py1 px2 py2 tx1 ty1 tx2 ty2 : EReal) : EReal :=
  one - (Ideal.div (inter px1 py1 px2 py2 tx1 ty1 tx2 ty2) (union px1 py1 px2 py2 tx1 ty1 tx2 ty2)
    - Ideal.div (enclose px1 py1 px2 py2 tx1 ty1 tx2 ty2 - union px1 py1 px2 py2 tx1 ty1 tx2 ty2)
        (enclose px1 py1 px2 py2 tx1 ty1 tx2 ty2))

/-- The loss of row `r` of two [n, 4] arrays of boxes. -/
def rowLoss {n : Nat} (p t : (⟨2, ![n, 4]⟩ : Shape).Idx → EReal) (r : Fin n) : EReal :=
  pairLoss (p (ix2 r 0)) (p (ix2 r 1)) (p (ix2 r 2)) (p (ix2 r 3))
    (t (ix2 r 0)) (t (ix2 r 1)) (t (ix2 r 2)) (t (ix2 r 3))

/-- The mean loss over the 8,000,000 pairs, as a rank-0 array. -/
def meanLoss (p t : (⟨2, ![8000000, 4]⟩ : Shape).Idx → EReal) : (⟨0, ![]⟩ : Shape).Idx → EReal :=
  fun _ => Ideal.div (zero + ∑ r : Fin 8000000, rowLoss p t r) count

end Cert.Giou

end
-- ==== Proof.KernelBody.lean ====
/-
  The kernel body's arithmetic, read at the extended reals.

  At a grid point the body holds a [6400, 4] block of predicted boxes and one of target boxes.  Column c of a
  block, cast to a vector of 6400 lanes, is at lane k the block's entry (k, c).  The loss is computed lane by
  lane, the 6400 lanes are summed (a [1, 6400] row reduced along its second axis), and the sum is added to the
  accumulator cell: the body turns the accumulator `a` into `a + ∑ₖ loss(row k of the two blocks)`.
-/
import proofs.«105647_j33672543601399_2_alg».proof.Proof.Gen.KernelIdeal.Skeleton
import proofs.«105647_j33672543601399_2_alg».proof.Proof.GiouSpec
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Giou

/-- Column `c` of a [6400, 4] block (a unit-stride slice at offset (0, c)) cast to a vector of 6400 lanes: lane
    `k` is the block's entry (k, c).  For any element type. -/
theorem col_apply {F : FTy → Type} (x : Vec F S6400x4 .f32) (c : Fin 4) (off : Fin 2 → Nat) (hoff : off = ![0, c.val])
    (hs : S6400x4.Slices off S6400x1) (hc : S6400x1.ShapeCasts S6400) (k : Fin 6400) :
    shapeCast S6400 (extractStridedSlice S6400x1 off x hs) hc (ix1 k) = x (ix2 k c) := by
  subst hoff
  refine (shapeCast_apply _ hc (ix1 k) (ix2 k 0) ?_).trans ?_
  · rw [Shape.rowMajor_val_two, Shape.rowMajor_val_one]; show k.val * 1 + 0 = k.val; omega
  · refine extractStridedSlice_apply _ x hs (ix2 k 0) (ix2 k c) (fun a => ?_)
    match a with
    | ⟨0, _⟩ => show k.val = 0 + k.val; omega
    | ⟨1, _⟩ => show c.val = c.val + 0; omega

section columns
variable {F : FTy → Type} [FloatOps F] (x : Vec F S6400x4 .f32) (k : Fin 6400)

/-- The eight column vectors the body cuts from its two blocks, at lane `k`. -/
theorem pay3_apply : k0_pay3 x (ix1 k) = x (ix2 k 0) := col_apply x 0 _ rfl _ _ k
theorem pay4_apply : k0_pay4 x (ix1 k) = x (ix2 k 1) := col_apply x 1 _ rfl _ _ k
theorem pay5_apply : k0_pay5 x (ix1 k) = x (ix2 k 2) := col_apply x 2 _ rfl _ _ k
theorem pay6_apply : k0_pay6 x (ix1 k) = x (ix2 k 3) := col_apply x 3 _ rfl _ _ k
theorem pay7_apply : k0_pay7 x (ix1 k) = x (ix2 k 0) := col_apply x 0 _ rfl _ _ k
theorem pay8_apply : k0_pay8 x (ix1 k) = x (ix2 k 1) := col_apply x 1 _ rfl _ _ k
theorem pay9_apply : k0_pay9 x (ix1 k) = x (ix2 k 2) := col_apply x 2 _ rfl _ _ k
theorem pay10_apply : k0_pay10 x (ix1 k) = x (ix2 k 3) := col_apply x 3 _ rfl _ _ k

end columns

section lanes
variable (x0 x1 : Vec Ideal S6400x4 .f32) (k : Fin 6400)

/-- Lane `k` of the intersection area. -/
theorem pay11_apply : k0_pay11 x0 x1 (ix1 k)
    = inter (x0 (ix2 k 0)) (x0 (ix2 k 1)) (x0 (ix2 k 2)) (x0 (ix2 k 3)) (x1 (ix2 k 0)) (x1 (ix2 k 1)) (x1 (ix2 k 2)) (x1 (ix2 k 3)) := by
  rw [← pay3_apply x0 k, ← pay4_apply x0 k, ← pay5_apply x0 k, ← pay6_apply x0 k,
    ← pay7_apply x1 k, ← pay8_apply x1 k, ← pay9_apply x1 k, ← pay10_apply x1 k]
  rfl

/-- Lane `k` of the union area. -/
theorem pay12_apply : k0_pay12 x0 x1 (ix1 k)
    = union (x0 (ix2 k 0)) (x0 (ix2 k 1)) (x0 (ix2 k 2)) (x0 (ix2 k 3)) (x1 (ix2 k 0)) (x1 (ix2 k 1)) (x1 (ix2 k 2)) (x1 (ix2 k 3)) := by
  unfold union
  rw [← pay11_apply x0 x1 k, ← pay3_apply x0 k, ← pay4_apply x0 k, ← pay5_apply x0 k, ← pay6_apply x0 k,
    ← pay7_apply x1 k, ← pay8_apply x1 k, ← pay9_apply x1 k, ← pay10_apply x1 k]
  rfl

/-- Lane `k` of the intersection over the union. -/
theorem pay13_apply : k0_pay13 x0 x1 (ix1 k)
    = Ideal.div (inter (x0 (ix2 k 0)) (x0 (ix2 k 1)) (x0 (ix2 k 2)) (x0 (ix2 k 3)) (x1 (ix2 k 0)) (x1 (ix2 k 1)) (x1 (ix2 k 2)) (x1 (ix2 k 3)))
        (union (x0 (ix2 k 0)) (x0 (ix2 k 1)) (x0 (ix2 k 2)) (x0 (ix2 k 3)) (x1 (ix2 k 0)) (x1 (ix2 k 1)) (x1 (ix2 k 2)) (x1 (ix2 k 3))) := by
  rw [← pay11_apply x0 x1 k, ← pay12_apply x0 x1 k]
  rfl

/-- Lane `k` of the enclosing box's width, clipped at zero. -/
theorem pay14_apply : k0_pay14 x0 x1 (ix1 k)
    = max (max (x0 (ix2 k 2)) (x1 (ix2 k 2)) - min (x0 (ix2 k 0)) (x1 (ix2 k 0))) zero := by
  rw [← pay3_apply x0 k, ← pay5_apply x0 k, ← pay7_apply x1 k, ← pay9_apply x1 k]
  rfl

/-- Lane `k` of the enclosing box's height, not yet clipped. -/
theorem pay15_apply : k0_pay15 x0 x1 (ix1 k)
    = max (x0 (ix2 k 3)) (x1 (ix2 k 3)) - min (x0 (ix2 k 1)) (x1 (ix2 k 1)) := by
  rw [← pay4_apply x0 k, ← pay6_apply x0 k, ← pay8_apply x1 k, ← pay10_apply x1 k]
  rfl

end lanes

/-- A one-entry vector cast to [1, 1] and read at (0, 0) is its entry. -/
theorem cast_extract {α : Type} (w : S1.Idx → α) (hc : S1.ShapeCasts S1x1) (hp : ∀ a, (![0, 0] : Fin 2 → Nat) a < S1x1.size a) :
    extractAt ![0, 0] (shapeCast S1x1 w hc) hp = w (ix1 0) := by
  unfold extractAt
  refine shapeCast_apply w hc _ (ix1 0) ?_
  rw [Shape.rowMajor_val_two, Shape.rowMajor_val_one]
  rfl

/-- A vector of 6400 lanes laid out as a [1, 6400] row and summed along the row, from zero: the sum of the lanes. -/
theorem lane_sum (v : FVec Ideal S6400 .f32) (hc : S6400.ShapeCasts S1x6400) (hr : S1x6400.Reduces [1] S1)
    (hφ : FKind.Formats .f32) (hacc : (0x00000000#32 : BitVec 32) = 0x00000000#32) (j : S1.Idx) :
    multiReduction .add [1] S1 (shapeCast S1x6400 v hc) 0x00000000#32 hr hφ hacc j = ∑ k : Fin 6400, v (ix1 k) := by
  refine (Ideal.multiReduction_add_single (shapeCast S1x6400 v hc) 0x00000000#32 hr hφ hacc j).trans ?_
  refine Finset.sum_congr rfl (fun k _ => ?_)
  refine shapeCast_apply v hc (hr.lift j k) (ix1 k) ?_
  rw [Shape.rowMajor_val_two, Shape.rowMajor_val_one]
  have h0 : (hr.lift j k 0).val < 1 := (hr.lift j k 0).isLt
  have h1 : (hr.lift j k 1).val = k.val := by rw [hr.lift_val]; simp [Shape.Reduces.liftVal]
  show k.val = (hr.lift j k 0).val * 6400 + (hr.lift j k 1).val
  omega

/-- The stored accumulator, over the four lane vectors the first part of the body hands on: the old accumulator
    plus the sum over the lanes of `1 − (iou − (enclose − union) / enclose)`. -/
theorem pay1_apply (v39 v40 v45 v48 : FVec Ideal S6400 .f32) (xs : Vec Ideal S1x1 .f32) (j : S1x1.Idx) :
    k0_pay1 v39 v40 v45 v48 xs j
      = xs j + ∑ k : Fin 6400, (one - (v40 (ix1 k)
          - Ideal.div (v45 (ix1 k) * max (v48 (ix1 k)) zero - v39 (ix1 k)) (v45 (ix1 k) * max (v48 (ix1 k)) zero))) := by
  unfold k0_pay1
  dsimp only
  refine (congrFun (shapeCast_self _ _) j).trans ?_
  refine congrArg (xs j + ·) ?_
  refine (cast_extract _ _ _).trans ?_
  refine (lane_sum _ _ _ _ _ _).trans ?_
  rfl

/-- THE BODY: over blocks `x0`, `x1` and the accumulator `xs`, it stores `xs + ∑ₖ loss(row k)`. -/
theorem body_apply (x0 x1 : Vec Ideal S6400x4 .f32) (xs : Vec Ideal S1x1 .f32) (j : S1x1.Idx) :
    k0_pay1 (k0_pay12 x0 x1) (k0_pay13 x0 x1) (k0_pay14 x0 x1) (k0_pay15 x0 x1) xs j
      = xs j + ∑ k : Fin 6400, rowLoss (n := 6400) x0 x1 k := by
  refine (pay1_apply _ _ _ _ xs j).trans (congrArg (xs j + ·) (Finset.sum_congr rfl fun k _ => ?_))
  rw [pay12_apply, pay13_apply, pay14_apply, pay15_apply]
  rfl

/-- The zero the first grid point stores into the accumulator. -/
theorem pay2_apply (j : S1x1.Idx) : k0_pay2 (F := Ideal) j = zero := by
  unfold k0_pay2
  exact congrFun (shapeCast_self _ _) j

end Cert.KernelIdeal.Body

end
-- ==== Proof.KernelAcc.lean ====
/-
  The accumulator, point by point, at the extended reals.

  Grid point t holds rows 6400·t … 6400·t + 6399 of the two arrays of boxes; write B(t) for the sum of the
  losses of those 6400 rows.  The first point leaves the accumulator at 0 + B(0); every later point adds its
  B(t); so after point n it holds 0 + (B(0) + … + B(n)) — by induction on the point, re-associating the sum.
  At the last point the output cell receives the accumulator.
-/
import proofs.«105647_j33672543601399_2_alg».proof.Proof.KernelPieces
import proofs.«105647_j33672543601399_2_alg».proof.Proof.KernelBody

noncomputable section

namespace Cert.KernelIdeal.Acc

open Idealize.ShloMosaic Idealize.ShloMosaic.TcCoe Idealize.ShloMosaic.ValueIdx Idealize.SL.Sem
open Cert.KernelIdeal Cert.KernelIdeal.Gen Cert.Giou

variable (m : (ℓ : Loc nD τ sig) → Buf (Elt Ideal) ℓ)

/-- B(t): the sum of the losses of the 6400 rows grid point `t` holds. -/
def blockLoss (c : Dev nD) (t : Fin cfg0.N) : EReal :=
  ∑ k : Fin 6400, rowLoss (n := 6400) (iblk m c 0 t : Vec Ideal S6400x4 .f32) (iblk m c 1 t : Vec Ideal S6400x4 .f32) k

/-- The first point leaves the accumulator at `0 + B(t)`. -/
theorem acc_first (c : Dev nD) (t : Fin cfg0.N) (h0 : t.val % 1250 = 0) (j : S1x1.Idx) :
    (outsAt0 m c t.val t.isLt).2 j = zero + blockLoss m c t := by
  have h1 : ¬t.val % 1250 = 1249 := by omega
  rw [outsAt0_A m c t h0 h1]
  dsimp only
  refine (congrFun (Pieces.sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) j).trans ?_
  refine (Body.body_apply (iblk m c 0 t) (iblk m c 1 t) (k0_pay2 (F := Ideal)) j).trans ?_
  rw [Body.pay2_apply]
  rfl

/-- Every later point adds its `B(t)` to what the point before left. -/
theorem acc_next (c : Dev nD) (t : Fin cfg0.N) (h0 : ¬t.val % 1250 = 0) (j : S1x1.Idx) :
    (outsAt0 m c t.val t.isLt).2 j
      = (outsAt0 m c (t.val - 1) (Nat.lt_of_le_of_lt (Nat.sub_le _ _) t.isLt)).2 j + blockLoss m c t := by
  by_cases h1 : t.val % 1250 = 1249
  · rw [outsAt0_C m c t h0 h1]
    dsimp only
    refine (congrFun (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) j).trans ?_
    exact Body.body_apply (iblk m c 0 t) (iblk m c 1 t) _ j
  · rw [outsAt0_B m c t h0 h1]
    dsimp only
    refine (congrFun (Pieces.sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) j).trans ?_
    exact Body.body_apply (iblk m c 0 t) (iblk m c 1 t) _ j

/-- At the last point the output cell receives the accumulator just stored. -/
theorem out_last (c : Dev nD) (t : Fin cfg0.N) (h0 : ¬t.val % 1250 = 0) (h1 : t.val % 1250 = 1249) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).trans
    (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).symm

/-- B(0) + … + B(n). -/
def partialSum (c : Dev nD) (n : ℕ) (h : n < cfg0.N) : EReal :=
  ∑ t : Fin (n + 1), blockLoss m c ⟨t.val, lt_of_le_of_lt (Nat.le_of_lt_succ t.isLt) h⟩

/-- THE ACCUMULATION: after point `n` the accumulator holds `0 + (B(0) + … + B(n))`. -/
theorem acc_eq (c : Dev nD) : ∀ (n : ℕ) (h : n < cfg0.N) (j : S1x1.Idx),
    (outsAt0 m c n h).2 j = zero + partialSum m c n h
  | 0, h, j => by
    refine (acc_first m c ⟨0, h⟩ rfl j).trans ?_
    unfold partialSum
    rw [Fin.sum_univ_castSucc, Fin.sum_univ_zero, zero_add]
    rfl
  | n + 1, h, j => by
    have hN : cfg0.N = 1250 := N_0
    have h0 : ¬(⟨n + 1, h⟩ : Fin cfg0.N).val % 1250 = 0 := by dsimp only; omega
    refine (acc_next m c ⟨n + 1, h⟩ h0 j).trans ?_
    show (outsAt0 m c n _).2 j + _ = _
    rw [acc_eq c n _ j]
    unfold partialSum
    rw [Fin.sum_univ_castSucc (n := n + 1), add_assoc]
    rfl

end Cert.KernelIdeal.Acc

end
-- ==== Proof.LibBlockSum.lean ====
/-
  A sum over `Fin (B * R)` read block by block: the index `i` is `b * R + r` for exactly one block `b : Fin B`
  and one offset `r : Fin R`, so summing the blocks' sums is summing everything.  Stated in any commutative
  additive monoid (the extended reals are one: no finiteness is needed to regroup a sum).
-/
import Mathlib.Algebra.BigOperators.Fin
import Mathlib.Logic.Equiv.Fin.Basic

namespace Cert.Lib

/-- `∑ b, ∑ r, g (b * R + r) = ∑ i, g i` over `Fin (B * R)`, the index built by `finProdFinEquiv`
    (whose value is `r + R * b`). -/
theorem sum_blocks {M : Type*} [AddCommMonoid M] (B R : ℕ) (g : Fin (B * R) → M) :
    ∑ b : Fin B, ∑ r : Fin R, g (finProdFinEquiv (b, r)) = ∑ i : Fin (B * R), g i := by
  rw [← Fintype.sum_prod_type' (f := fun b r => g (finProdFinEquiv (b, r)))]
  exact Equiv.sum_comp finProdFinEquiv g

/-- The same with the block's entry named by its value: any `idx b r` whose value is `b * R + r`. -/
theorem sum_blocks_val {M : Type*} [AddCommMonoid M] (B R : ℕ) (g : Fin (B * R) → M)
    (idx : Fin B → Fin R → Fin (B * R)) (hidx : ∀ b r, (idx b r).val = b.val * R + r.val) :
    ∑ b : Fin B, ∑ r : Fin R, g (idx b r) = ∑ i : Fin (B * R), g i := by
  rw [← sum_blocks B R g]
  refine Finset.sum_congr rfl fun b _ => Finset.sum_congr rfl fun r _ => congrArg g (Fin.ext ?_)
  rw [hidx]; simp [finProdFinEquiv, Nat.mul_comm, Nat.add_comm]

/-- The same over `Fin N` with `N = B * R` given as an equation (so that `N` may be a literal). -/
theorem sum_blocks_of_eq {M : Type*} [AddCommMonoid M] {B R N : ℕ} (hN : B * R = N) (g : Fin N → M)
    (idx : Fin B → Fin R → Fin N) (hidx : ∀ b r, (idx b r).val = b.val * R + r.val) :
    ∑ b : Fin B, ∑ r : Fin R, g (idx b r) = ∑ i : Fin N, g i := by
  subst hN
  exact sum_blocks_val B R g idx hidx

end Cert.Lib
-- ==== Proof.KernelRows.lean ====
/-
  The kernel's blocks are rows of the whole arrays, and its 1250 block sums add up to the sum over all rows.

  Grid point t's block of either array of boxes is rows 6400·t … 6400·t + 6399 (all four columns): entry (k, col)
  of the block is entry (6400·t + k, col) of the array.  So B(t) is the sum of the losses of those rows of the
  arrays, and B(0) + … + B(1249), the 8,000,000 = 1250 · 6400 rows taken block by block, is the sum over all rows.
-/
import proofs.«105647_j33672543601399_2_alg».proof.Proof.KernelAcc
import proofs.«105647_j33672543601399_2_alg».proof.Proof.LibBlockSum

noncomputable section

namespace Cert.KernelIdeal.Rows

open Idealize.ShloMosaic Idealize.ShloMosaic.TcCoe Idealize.ShloMosaic.ValueIdx Idealize.SL.Sem
open Cert.KernelIdeal Cert.KernelIdeal.Gen Cert.Giou Cert.KernelIdeal.Acc

variable (m : (ℓ : Loc nD τ sig) → Buf (Elt Ideal) ℓ)

/-- Row `k` of grid point `t`'s block, as a row of the whole array. -/
abbrev rowIdx (t : Fin cfg0.N) (k : Fin 6400) : Fin 8000000 :=
  ⟨t.val * 6400 + k.val, by have := lt_of_lt_of_eq t.isLt (show cfg0.N = 1250 from N_0); have := k.isLt; omega⟩

/-- The two input windows' block index at point `t` is `(t, 0)`: decided over the grid. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry (k, col) of point `t`'s block of the predicted boxes is entry (6400·t + k, col) of the array. -/
theorem iblk0_apply (c : Dev nD) (t : Fin cfg0.N) (k : Fin 6400) (col : Fin 4) :
    (iblk m c 0 t : Vec Ideal S6400x4 .f32) (ix2 k col)
      = (m ((c : Thread nD τ).loc main_arg0) : S8000000x4.Idx → EReal) (ix2 (rowIdx t k) col) := by
  unfold iblk
  rw [View.read_apply]
  show m ((c : Thread nD τ).loc main_arg0) _ = m ((c : Thread nD τ).loc main_arg0) _
  refine congrArg _ (funext fun a => Fin.ext ?_)
  match a with
  | ⟨0, _⟩ => show win0_0.index t 0 * 6400 + 1 * k.val = t.val * 6400 + k.val; rw [(idx_facts t).1]; omega
  | ⟨1, _⟩ => show win0_0.index t 1 * 4 + 1 * col.val = col.val; rw [(idx_facts t).2.1]; omega

/-- The same for the target boxes. -/
theorem iblk1_apply (c : Dev nD) (t : Fin cfg0.N) (k : Fin 6400) (col : Fin 4) :
    (iblk m c 1 t : Vec Ideal S6400x4 .f32) (ix2 k col)
      = (m ((c : Thread nD τ).loc main_arg1) : S8000000x4.Idx → EReal) (ix2 (rowIdx t k) col) := by
  unfold iblk
  rw [View.read_apply]
  show m ((c : Thread nD τ).loc main_arg1) _ = m ((c : Thread nD τ).loc main_arg1) _
  refine congrArg _ (funext fun a => Fin.ext ?_)
  match a with
  | ⟨0, _⟩ => show win0_1.index t 0 * 6400 + 1 * k.val = t.val * 6400 + k.val; rw [(idx_facts t).2.2.1]; omega
  | ⟨1, _⟩ => show win0_1.index t 1 * 4 + 1 * col.val = col.val; rw [(idx_facts t).2.2.2]; omega

/-- The loss of row `r` of the two argument arrays. -/
abbrev argLoss (c : Dev nD) (r : Fin 8000000) : EReal :=
  rowLoss (n := 8000000) (m ((c : Thread nD τ).loc main_arg0) : S8000000x4.Idx → EReal)
    (m ((c : Thread nD τ).loc main_arg1) : S8000000x4.Idx → EReal) r

/-- B(t) is the sum of the losses of rows 6400·t … 6400·t + 6399 of the argument arrays. -/
theorem blockLoss_eq (c : Dev nD) (t : Fin cfg0.N) : blockLoss m c t = ∑ k : Fin 6400, argLoss m c (rowIdx t k) := by
  unfold blockLoss
  refine Finset.sum_congr rfl fun k _ => ?_
  unfold argLoss rowLoss
  rw [iblk0_apply m c t k 0, iblk0_apply m c t k 1, iblk0_apply m c t k 2, iblk0_apply m c t k 3,
    iblk1_apply m c t k 0, iblk1_apply m c t k 1, iblk1_apply m c t k 2, iblk1_apply m c t k 3]

/-- B(0) + … + B(1249) is the sum of the losses of all 8,000,000 rows. -/
theorem total_eq (c : Dev nD) (h : 1249 < cfg0.N) : partialSum m c 1249 h = ∑ r : Fin 8000000, argLoss m c r := by
  unfold partialSum
  have e : ∀ t : Fin (1249 + 1), blockLoss m c ⟨t.val, lt_of_le_of_lt (Nat.le_of_lt_succ t.isLt) h⟩
      = ∑ k : Fin 6400, argLoss m c (rowIdx ⟨t.val, lt_of_le_of_lt (Nat.le_of_lt_succ t.isLt) h⟩ k) :=
    fun t => blockLoss_eq m c _
  rw [Finset.sum_congr rfl fun t _ => e t]
  exact Cert.Lib.sum_blocks_of_eq (B := 1250) (R := 6400) (N := 8000000) (by norm_num) (argLoss m c)
    (fun t k => rowIdx ⟨t.val, lt_of_le_of_lt (Nat.le_of_lt_succ t.isLt) h⟩ k) (fun t k => rfl)

end Cert.KernelIdeal.Rows

end
-- ==== Proof.KernelValue.lean ====
/-
  The kernel program's result, at the extended reals, is the mean loss of its two arguments.

  The output window's one block is the whole [1, 1] output array, and only the last grid point writes it back;
  what it writes is the accumulator after that point, 0 + (B(0) + … + B(1249)), which is 0 + the sum of the
  losses of all 8,000,000 rows.  The host lines after the region reshape the cell to a scalar and divide it
  by 8000000.  The argument arrays are never written.
-/
import proofs.«105647_j33672543601399_2_alg».proof.Proof.KernelRows
import Idealize.ShloMosaic.Lib.Pipeline.Value
import Idealize.ShloMosaic.Lib.StableHlo.Run

noncomputable section

namespace Cert.KernelIdeal.Value

open Idealize.ShloMosaic Idealize.ShloMosaic.TcCoe Idealize.ShloMosaic.ValueIdx Idealize.SL.Sem
open Cert.KernelIdeal Cert.KernelIdeal.Gen Cert.Giou Cert.KernelIdeal.Acc
open Idealize.ShloMosaic.Pipeline (Dat)

variable (m : (ℓ : Loc nD τ sig) → Buf (Elt Ideal) ℓ) (ρ : Dev nD → PrngReg)

/-- 1249 is the last of the 1250 grid points. -/
theorem hlast : 1249 < cfg0.N := by rw [show cfg0.N = 1250 from N_0]; decide

/-- The cell the kernel writes back: the accumulator after the last point. -/
abbrev cell (c : Dev nD) : Buf (Elt Ideal) ((c : Thread nD τ).loc main_v0) := fun _ => zero + partialSum m c 1249 hlast

/-- The accumulator after point `n = 1249`, with the point kept a variable. -/
theorem acc_last (c : Dev nD) (n : ℕ) (h : n < cfg0.N) (hn : n = 1249) (j : S1x1.Idx) :
    (outsAt0 m c n h).2 j = zero + partialSum m c 1249 hlast := by
  subst hn; exact acc_eq m c 1249 h j

/-- The one write-back, at the last point, writes the cell: there the output's staging buffer holds the accumulator. -/
theorem flushed_eq (c : Dev nD) (t : Fin cfg0.N) (hf : (cfg0.win 2).flush t = true) :
    (dats m 0 c).flushed 2 t = ((cfg0.win 2).blk t).view.read (Elt Ideal) (cell m c) := by
  have hN : cfg0.N = 1250 := N_0
  have h1 : t.val % 1250 = 1249 := (flush0_2 t).mp hf
  have h0 : ¬t.val % 1250 = 0 := by omega
  have ht : t.val = 1249 := by have := t.isLt; omega
  show (cfg0.win 2).cut (grid0.coords t) ((dats m 0 c).after 2 t) = _
  rw [after0_2, out_last m c t h0 h1]
  funext y
  rw [View.read_apply]
  exact acc_last m c t.val t.isLt ht _

/-- The output window's block index is (0, 0) and its block has one row and one column, at every point:
    decided over the grid. -/
theorem out_facts : ∀ t : Fin cfg0.N, win0_2.index t (0 : Fin 2) = 0 ∧ win0_2.index t (1 : Fin 2) = 0
    ∧ win0_2.xsize (grid0.coords t) (0 : Fin 2) = 1 ∧ win0_2.xsize (grid0.coords t) (1 : Fin 2) = 1 :=
  (by decide +kernel : ∀ t : Fin grid0.N, win0_2.index t (0 : Fin 2) = 0 ∧ win0_2.index t (1 : Fin 2) = 0
    ∧ win0_2.xsize (grid0.coords t) (0 : Fin 2) = 1 ∧ win0_2.xsize (grid0.coords t) (1 : Fin 2) = 1)

/-- A point that writes back covers the whole [1, 1] array, so the array ends at the cell. -/
theorem final_of (c : Dev nD) (tl : Fin cfg0.N) (htl : tl.val % 1250 = 1249) : (dats m 0 c).arrAt 2 cfg0.N = cell m c :=
  (dats m 0 c).arrAt_eq_of_cover 2 (cell m c) (flushed_eq m c) fun i =>
    ⟨tl, (flush0_2 tl).mpr htl, by
      show i ∈ ((View.whole main_v0).slice (win0_2.rect tl)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tl 0 * 1 ≤ (i 0 : Nat) ∧ (i 0 : Nat) < win0_2.index tl 0 * 1 + win0_2.xsize (grid0.coords tl) 0
        rw [(out_facts tl).1, (out_facts tl).2.2.1]; omega
      | ⟨1, _⟩ =>
        show win0_2.index tl 1 * 1 ≤ (i 1 : Nat) ∧ (i 1 : Nat) < win0_2.index tl 1 * 1 + win0_2.xsize (grid0.coords tl) 1
        rw [(out_facts tl).2.1, (out_facts tl).2.2.2]; omega⟩

/-- The output array after the region. -/
theorem final (c : Dev nD) : (dats m 0 c).arrAt 2 cfg0.N = cell m c := final_of m c ⟨1249, hlast⟩ rfl

/-- The host lines after the region, over the region's output cell: the cell reshaped to a scalar, divided by 8000000. -/
theorem tail_eq (c : Dev nD) :
    Pipeline.afterTail₀ cfgs (dats m) 0 (V0 m) [hostOps1] c main_v2
      = (fun _ => Ideal.div (zero + partialSum m c 1249 hlast) count : S_.Idx → EReal) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0) = cell m c :=
    (Pipeline.withArrays_arr spec0 launch0.win.arr_inj c _ _ 2).trans (final m c)
  rw [e]
  rfl

/-- That is the mean loss of the argument arrays: the 1250 block sums are the sum over all rows. -/
theorem mean_eq (c : Dev nD) :
    (fun _ => Ideal.div (zero + partialSum m c 1249 hlast) count : S_.Idx → EReal)
      = meanLoss (m ((c : Thread nD τ).loc main_arg0) : S8000000x4.Idx → EReal) (m ((c : Thread nD τ).loc main_arg1) : S8000000x4.Idx → EReal) := by
  unfold meanLoss
  rw [Rows.total_eq m c hlast]

/-- THE KERNEL PROGRAM'S RUN, read: every weakly fair execution terminates with the result at the mean loss of the
    argument arrays, and the argument arrays unchanged. -/
theorem run : θ_run defs (onTc (τ := τ) (main (F := Ideal))) ⟨m, fun _ => 0, ρ⟩ fun r => ∀ c : Dev nD,
      r.2.mem ((c.tc : Thread nD τ).loc main_v2)
        = meanLoss (m ((c : Thread nD τ).loc main_arg0) : S8000000x4.Idx → EReal) (m ((c : Thread nD τ).loc main_arg1) : S8000000x4.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans ((tail_eq m c).trans (mean_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.RefValue.lean ====
/-
  The reference, read at the extended reals, is the mean loss.

  The reference cuts each [8000000, 4] array into its four columns (a slice of width one, reshaped to a vector):
  entry r of column c is the array's entry (r, c).  Its clip at zero is `max 0 x`, which is `max x 0`.  Entry r of
  its loss vector is then the loss of row r, its sum from zero is `0 + ∑ᵣ loss r` (the sum over the rank-one
  index type is the sum over the rows), and the result is that sum divided by 8000000.
-/
import proofs.«105647_j33672543601399_2_alg».proof.Proof.Gen.ReferenceIdeal.Read
import proofs.«105647_j33672543601399_2_alg».proof.Proof.GiouSpec
import Idealize.ShloMosaic.Lib.ValueIdx

noncomputable section

namespace Cert.ReferenceIdeal.RefValue

open Idealize.ShloMosaic Idealize.ShloMosaic.ValueIdx Cert.ReferenceIdeal Cert.ReferenceIdeal.Read Cert.Giou

section columns
variable {F : FTy → Type} [FloatOps F]

theorem v1_row (x0 : (⟨S8000000x4, .f32⟩ : BufTy).Contents (Elt F)) (r : Fin 8000000) :
    val_main_v1 (F := F) x0 (ix1 r) = x0 (ix2 r 0) := by
  rw [val_main_v1_apply, val_main_v0_apply]
  refine congrArg x0 (funext fun a => Fin.ext ?_)
  match a with
  | ⟨0, _⟩ => exact Nat.div_one _
  | ⟨1, _⟩ => rfl

theorem v3_row (x0 : (⟨S8000000x4, .f32⟩ : BufTy).Contents (Elt F)) (r : Fin 8000000) :
    val_main_v3 (F := F) x0 (ix1 r) = x0 (ix2 r 1) := by
  rw [val_main_v3_apply, val_main_v2_apply]
  refine congrArg x0 (funext fun a => Fin.ext ?_)
  match a with
  | ⟨0, _⟩ => exact Nat.div_one _
  | ⟨1, _⟩ => rfl

theorem v5_row (x0 : (⟨S8000000x4, .f32⟩ : BufTy).Contents (Elt F)) (r : Fin 8000000) :
    val_main_v5 (F := F) x0 (ix1 r) = x0 (ix2 r 2) := by
  rw [val_main_v5_apply, val_main_v4_apply]
  refine congrArg x0 (funext fun a => Fin.ext ?_)
  match a with
  | ⟨0, _⟩ => exact Nat.div_one _
  | ⟨1, _⟩ => rfl

theorem v7_row (x0 : (⟨S8000000x4, .f32⟩ : BufTy).Contents (Elt F)) (r : Fin 8000000) :
    val_main_v7 (F := F) x0 (ix1 r) = x0 (ix2 r 3) := by
  rw [val_main_v7_apply, val_main_v6_apply]
  refine congrArg x0 (funext fun a => Fin.ext ?_)
  match a with
  | ⟨0, _⟩ => exact Nat.div_one _
  | ⟨1, _⟩ => rfl

theorem v9_row (x1 : (⟨S8000000x4, .f32⟩ : BufTy).Contents (Elt F)) (r : Fin 8000000) :
    val_main_v9 (F := F) x1 (ix1 r) = x1 (ix2 r 0) := by
  rw [val_main_v9_apply, val_main_v8_apply]
  refine congrArg x1 (funext fun a => Fin.ext ?_)
  match a with
  | ⟨0, _⟩ => exact Nat.div_one _
  | ⟨1, _⟩ => rfl

theorem v11_row (x1 : (⟨S8000000x4, .f32⟩ : BufTy).Contents (Elt F)) (r : Fin 8000000) :
    val_main_v11 (F := F) x1 (ix1 r) = x1 (ix2 r 1) := by
  rw [val_main_v11_apply, val_main_v10_apply]
  refine congrArg x1 (funext fun a => Fin.ext ?_)
  match a with
  | ⟨0, _⟩ => exact Nat.div_one _
  | ⟨1, _⟩ => rfl

theorem v13_row (x1 : (⟨S8000000x4, .f32⟩ : BufTy).Contents (Elt F)) (r : Fin 8000000) :
    val_main_v13 (F := F) x1 (ix1 r) = x1 (ix2 r 2) := by
  rw [val_main_v13_apply, val_main_v12_apply]
  refine congrArg x1 (funext fun a => Fin.ext ?_)
  match a with
  | ⟨0, _⟩ => exact Nat.div_one _
  | ⟨1, _⟩ => rfl

theorem v15_row (x1 : (⟨S8000000x4, .f32⟩ : BufTy).Contents (Elt F)) (r : Fin 8000000) :
    val_main_v15 (F := F) x1 (ix1 r) = x1 (ix2 r 3) := by
  rw [val_main_v15_apply, val_main_v14_apply]
  refine congrArg x1 (funext fun a => Fin.ext ?_)
  match a with
  | ⟨0, _⟩ => exact Nat.div_one _
  | ⟨1, _⟩ => rfl

end columns

/-- The four clips at zero: `max 0 x = max x 0`. -/
theorem v25_clip (x0 x1 : (⟨S8000000x4, .f32⟩ : BufTy).Contents (Elt Ideal)) (i : S8000000.Idx) :
    val_main_v25 (F := Ideal) x0 x1 i = max (val_main_v24 (F := Ideal) x0 x1 i) zero := by
  rw [val_main_v25_apply, val_main_call0_v1_apply, val_main_call0_v0_apply, val_main_cst_apply]
  exact max_comm _ _

theorem v29_clip (x0 x1 : (⟨S8000000x4, .f32⟩ : BufTy).Contents (Elt Ideal)) (i : S8000000.Idx) :
    val_main_v29 (F := Ideal) x0 x1 i = max (val_main_v28 (F := Ideal) x0 x1 i) zero := by
  rw [val_main_v29_apply, val_main_call1_v1_apply, val_main_call1_v0_apply, val_main_cst_0_apply]
  exact max_comm _ _

theorem v37_clip (x0 x1 : (⟨S8000000x4, .f32⟩ : BufTy).Contents (Elt Ideal)) (i : S8000000.Idx) :
    val_main_v37 (F := Ideal) x0 x1 i = max (val_main_v36 (F := Ideal) x0 x1 i) zero := by
  rw [val_main_v37_apply, val_main_call2_v1_apply, val_main_call2_v0_apply, val_main_cst_1_apply]
  exact max_comm _ _

theorem v41_clip (x0 x1 : (⟨S8000000x4, .f32⟩ : BufTy).Contents (Elt Ideal)) (i : S8000000.Idx) :
    val_main_v41 (F := Ideal) x0 x1 i = max (val_main_v40 (F := Ideal) x0 x1 i) zero := by
  rw [val_main_v41_apply, val_main_call3_v1_apply, val_main_call3_v0_apply, val_main_cst_2_apply]
  exact max_comm _ _

section rows
variable (x0 x1 : (⟨S8000000x4, .f32⟩ : BufTy).Contents (Elt Ideal)) (r : Fin 8000000)

/-- Entry `r` of the intersection areas. -/
theorem inter_row : val_main_v30 (F := Ideal) x0 x1 (ix1 r) = inter (x0 (ix2 r 0)) (x0 (ix2 r 1)) (x0 (ix2 r 2)) (x0 (ix2 r 3)) (x1 (ix2 r 0)) (x1 (ix2 r 1)) (x1 (ix2 r 2)) (x1 (ix2 r 3)) := by
  rw [val_main_v30_apply, v25_clip, v29_clip]
  rw [← v1_row x0 r, ← v3_row x0 r, ← v5_row x0 r, ← v7_row x0 r, ← v9_row x1 r, ← v11_row x1 r, ← v13_row x1 r, ← v15_row x1 r]
  rfl

/-- Entry `r` of the union areas. -/
theorem union_row : val_main_v32 (F := Ideal) x0 x1 (ix1 r) = union (x0 (ix2 r 0)) (x0 (ix2 r 1)) (x0 (ix2 r 2)) (x0 (ix2 r 3)) (x1 (ix2 r 0)) (x1 (ix2 r 1)) (x1 (ix2 r 2)) (x1 (ix2 r 3)) := by
  rw [val_main_v32_apply, inter_row]
  unfold union
  rw [← v1_row x0 r, ← v3_row x0 r, ← v5_row x0 r, ← v7_row x0 r, ← v9_row x1 r, ← v11_row x1 r, ← v13_row x1 r, ← v15_row x1 r]
  rfl

/-- Entry `r` of the enclosing boxes' areas. -/
theorem enclose_row : val_main_v42 (F := Ideal) x0 x1 (ix1 r) = enclose (x0 (ix2 r 0)) (x0 (ix2 r 1)) (x0 (ix2 r 2)) (x0 (ix2 r 3)) (x1 (ix2 r 0)) (x1 (ix2 r 1)) (x1 (ix2 r 2)) (x1 (ix2 r 3)) := by
  rw [val_main_v42_apply, v37_clip, v41_clip]
  rw [← v1_row x0 r, ← v3_row x0 r, ← v5_row x0 r, ← v7_row x0 r, ← v9_row x1 r, ← v11_row x1 r, ← v13_row x1 r, ← v15_row x1 r]
  rfl

/-- Entry `r` of the loss vector is the loss of row `r`. -/
theorem loss_row : val_main_v47 (F := Ideal) x0 x1 (ix1 r) = rowLoss (n := 8000000) x0 x1 r := by
  rw [val_main_v47_apply, val_main_v46_apply, val_main_cst_3_apply, val_main_v45_apply, val_main_v33_apply,
    val_main_v44_apply, val_main_v43_apply, inter_row, union_row, enclose_row]
  rfl

end rows

/-- A sum over the index type of a vector of `n` entries is the sum over its entries. -/
theorem sum_idx1 {M : Type*} [AddCommMonoid M] {n : Nat} (f : (⟨1, ![n]⟩ : Shape).Idx → M) :
    ∑ j : (⟨1, ![n]⟩ : Shape).Idx, f j = ∑ r : Fin n, f (ix1 r) :=
  (Equiv.sum_comp (⟨fun r => ix1 r, fun j => j 0, fun _ => rfl, fun j => (eq_ix1 j).symm⟩ : Fin n ≃ (⟨1, ![n]⟩ : Shape).Idx) f).symm

/-- THE REFERENCE: its result is the mean loss of its two arguments. -/
theorem result_eq (x0 x1 : (⟨S8000000x4, .f32⟩ : BufTy).Contents (Elt Ideal)) :
    val_main_v49 (F := Ideal) x0 x1 = meanLoss x0 x1 := by
  funext i
  rw [val_main_v49_apply, val_main_v48_apply, val_main_cst_5_apply, val_main_cst_4_apply, sum_idx1]
  rw [Finset.sum_congr rfl fun r _ => loss_row x0 x1 r]
  rfl

end Cert.ReferenceIdeal.RefValue

end
-- ==== Proof.lean ====
/-
  The mean generalized-IoU loss of 8,000,000 box pairs: a Pallas kernel against its jnp reference.

  Both programs compute, for each row r of the two [8000000, 4] arrays of boxes, the loss
    1 − (inter / union − (enclose − union) / enclose)
  of the predicted and the target box of that row (Proof/GiouSpec.lean), and return the mean of the losses.
  The reference sums all 8,000,000 losses at once; the kernel walks 1250 blocks of 6400 rows, adds each block's sum
  to an accumulator cell it zeroes at the first block, and writes the cell out after the last block; both divide
  by 8000000.  Over the extended reals the two results are equal because a finite sum may be regrouped
  (addition there is commutative and associative, infinities included), and because the reference's clip
  `max 0 x` is the kernel's `max x 0`; no finiteness of the inputs is used.

  The kernel program's three frames' runs are cited from the generated frame modules; the reference's run from its
  generated run module.  The idealization rewrote no operation, so `preserves` is `True`.
  The value side: Proof/KernelPieces.lean (what the body leaves, case by case), Proof/KernelBody.lean (the body's
  arithmetic at an entry), Proof/KernelAcc.lean (the accumulator, by induction on the grid point),
  Proof/KernelRows.lean (blocks are rows; the block sums add up), Proof/KernelValue.lean (the output array, the host
  lines after the region, the run), Proof/RefValue.lean (the reference is the mean loss).
-/
import proofs.«105647_j33672543601399_2_alg».proof.Defs
import proofs.«105647_j33672543601399_2_alg».proof.Proof.Gen.Kernel
import proofs.«105647_j33672543601399_2_alg».proof.Proof.Gen.Kernel.Skeleton
import proofs.«105647_j33672543601399_2_alg».proof.Proof.Gen.Kernel.Launch
import proofs.«105647_j33672543601399_2_alg».proof.Proof.Gen.Kernel.Points
import proofs.«105647_j33672543601399_2_alg».proof.Proof.Gen.Kernel.Frame
import proofs.«105647_j33672543601399_2_alg».proof.Proof.Gen.KernelIdeal
import proofs.«105647_j33672543601399_2_alg».proof.Proof.Gen.KernelIdeal.Skeleton
import proofs.«105647_j33672543601399_2_alg».proof.Proof.Gen.KernelIdeal.Launch
import proofs.«105647_j33672543601399_2_alg».proof.Proof.Gen.KernelIdeal.Points
import proofs.«105647_j33672543601399_2_alg».proof.Proof.Gen.KernelIdeal.Frame
import proofs.«105647_j33672543601399_2_alg».proof.Proof.Gen.ReferenceIdeal
import proofs.«105647_j33672543601399_2_alg».proof.Proof.Gen.Pre_finite_inputs
import proofs.«105647_j33672543601399_2_alg».proof.Proof.Gen.ReferenceIdeal.Run
import proofs.«105647_j33672543601399_2_alg».proof.Proof.Gen.ReferenceIdeal.Read
import proofs.«105647_j33672543601399_2_alg».proof.Proof.KernelValue
import proofs.«105647_j33672543601399_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the mean loss of arguments that agree. -/
theorem algebraic : Cert.algebraic_KernelIdeal_ReferenceIdeal := by
  intro m ρ m' ρ' _ hagree
  refine ⟨fun c => Cert.Giou.meanLoss
      (m ((c.tc : Thread Cert.KernelIdeal.nD Cert.KernelIdeal.τ).loc Cert.KernelIdeal.main_arg0) : Cert.KernelIdeal.S8000000x4.Idx → EReal)
      (m ((c.tc : Thread Cert.KernelIdeal.nD Cert.KernelIdeal.τ).loc Cert.KernelIdeal.main_arg1) : Cert.KernelIdeal.S8000000x4.Idx → EReal),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
